-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S10x1x28x28 : Shape := ⟨4, ![10, 1, 28, 28]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S10x1x28x28 : S_.BroadcastsInDim S10x1x28x28 (![] : Fin 0 → Fin S10x1x28x28.rank)
  reducesTo_S10x1x28x28_S_d0_1_2_3 : S10x1x28x28.ReducesTo [0, 1, 2, 3] S_

variable [Facts]

def fn {F : FTy → Type} [FloatOps F] (main_arg0 : FVec F S16384x1024 .f32) (main_arg1 : FVec F S16384x1024 .f32) (main_arg2 : FVec F S10x1x28x28 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S10x1x28x28 .f32 := Host.absf main_arg2
  let main_cst_2 : FVec F S_ .f32 := constant S_ .f32 0x7F800000#32
  let main_v10 : FVec F S10x1x28x28 .f32 := broadcastInDim S10x1x28x28 ![] bcast_S_S10x1x28x28 main_cst_2
  let main_v11 : IVec S10x1x28x28 1 := cmpf .olt main_v9 main_v10
  let main_c_3 : IVec S_ 1 := constantI S_ 1 1#1
  let main_v12 : IVec S_ 1 := (fun x v => Host.reduce IntOp.andi x v reducesTo_S10x1x28x28_S_d0_1_2_3 h_S_) main_v11 main_c_3
  let main_v13 : IVec S_ 1 := andi main_v8 main_v12
  main_v13
-- ==== Kernel.lean ====
abbrev S16384x1024 : Shape := ⟨2, ![16384, 1024]⟩
abbrev S10x1x28x28 : Shape := ⟨4, ![10, 1, 28, 28]⟩
abbrev S10x784 : Shape := ⟨2, ![10, 784]⟩
abbrev S_ : Shape := ⟨0, ![]⟩
abbrev S10x1024 : Shape := ⟨2, ![10, 1024]⟩
abbrev S10 : Shape := ⟨1, ![10]⟩
abbrev S10x1 : Shape := ⟨2, ![10, 1]⟩
abbrev S128x1024 : Shape := ⟨2, ![128, 1024]⟩
abbrev S1024x128 : Shape := ⟨2, ![1024, 128]⟩
abbrev S16384x128 : Shape := ⟨2, ![16384, 128]⟩
abbrev S2048x1024 : Shape := ⟨2, ![2048, 1024]⟩
abbrev S2048x128 : Shape := ⟨2, ![2048, 128]⟩
abbrev S16384x10 : Shape := ⟨2, ![16384, 10]⟩

abbrev nBuf : Space → Nat
  | .hbm => 20
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S10x1x28x28, .f32⟩
  | .hbm, ⟨3, _⟩ => ⟨S10x784, .f32⟩
  | .hbm, ⟨4, _⟩ => ⟨S_, .i32⟩
  | .hbm, ⟨5, _⟩ => ⟨S_, .f32⟩
  | .hbm, ⟨6, _⟩ => ⟨S10x1024, .f32⟩
  | .hbm, ⟨7, _⟩ => ⟨S10x1024, .f32⟩
  | .hbm, ⟨8, _⟩ => ⟨S_, .f32⟩
  | .hbm, ⟨9, _⟩ => ⟨S10, .f32⟩
  | .hbm, ⟨10, _⟩ => ⟨S10x1, .f32⟩
  | .hbm, ⟨11, _⟩ => ⟨S10x1, .f32⟩
  | .hbm, ⟨12, _⟩ => ⟨S10x1024, .f32⟩
  | .hbm, ⟨13, _⟩ => ⟨S10x1024, .f32⟩
  | .hbm, ⟨14, _⟩ => ⟨S_, .i32⟩
  | .hbm, ⟨15, _⟩ => ⟨S_, .f32⟩
  | .hbm, ⟨16, _⟩ => ⟨S128x1024, .f32⟩
  | .hbm, ⟨17, _⟩ => ⟨S1024x128, .f32⟩
  | .hbm, ⟨18, _⟩ => ⟨S16384x128, .f32⟩
  | .hbm, ⟨19, _⟩ => ⟨S16384x10, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x128, .f32⟩
  | .local _ .vmem, ⟨5, _⟩ => ⟨S2048x128, .f32⟩
  | .local _ .vmem, ⟨6, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_call1_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S10x1x28x28_S10x784 : S10x1x28x28.ShapeCasts S10x784
  pads_S10x784_S10x1024_000_02400 : S10x784.Pads (![0, 0] : Fin 2 → Nat) ![0, 240] ![0, 0] S10x1024
  h_S_ : 0 < S_.numel
  reducesTo_S10x1024_S10_d1 : S10x1024.ReducesTo [1] S10
  bcast_S10_S10x1_0 : S10.BroadcastsInDim S10x1 (![0] : Fin 1 → Fin S10x1.rank)
  bcast_S10x1_S10x1024_0_1 : S10x1.BroadcastsInDim S10x1024 (![0, 1] : Fin 2 → Fin S10x1024.rank)
  pads_S10x1024_S128x1024_01180_000 : S10x1024.Pads (![0, 0] : Fin 2 → Nat) ![118, 0] ![0, 0] S128x1024
  transposes_S128x1024_S1024x128_1_0 : S128x1024.Transposes [1, 0] S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  inb_S2048x128_S2048x128_0_0 : ∀ a, (![0, 0] : Fin 2 → Nat) a + S2048x128.size a ≤ S2048x128.size a
  h_S2048x128 : 0 < S2048x128.numel
  slices_S16384x128_S16384x10_0_0 : S16384x128.Slices ![0, 0] S16384x10
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S10x1x28x28 : Shape := ⟨4, ![10, 1, 28, 28]⟩
abbrev S10x784 : Shape := ⟨2, ![10, 784]⟩
abbrev S_ : Shape := ⟨0, ![]⟩
abbrev S10x1024 : Shape := ⟨2, ![10, 1024]⟩
abbrev S10 : Shape := ⟨1, ![10]⟩
abbrev S10x1 : Shape := ⟨2, ![10, 1]⟩
abbrev S16384x10 : Shape := ⟨2, ![16384, 10]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S10x1x28x28, .f32⟩
  | .hbm, ⟨3, _⟩ => ⟨S10x784, .f32⟩
  | .hbm, ⟨4, _⟩ => ⟨S_, .i32⟩
  | .hbm, ⟨5, _⟩ => ⟨S_, .f32⟩
  | .hbm, ⟨6, _⟩ => ⟨S10x1024, .f32⟩
  | .hbm, ⟨7, _⟩ => ⟨S10x1024, .f32⟩
  | .hbm, ⟨8, _⟩ => ⟨S_, .f32⟩
  | .hbm, ⟨9, _⟩ => ⟨S10, .f32⟩
  | .hbm, ⟨10, _⟩ => ⟨S10x1, .f32⟩
  | .hbm, ⟨11, _⟩ => ⟨S10x1, .f32⟩
  | .hbm, ⟨12, _⟩ => ⟨S10x1024, .f32⟩
  | .hbm, ⟨13, _⟩ => ⟨S10x1024, .f32⟩
  | .hbm, ⟨14, _⟩ => ⟨S16384x10, .f32⟩
  | .hbm, ⟨15, _⟩ => ⟨S16384x10, .f32⟩
  | .hbm, ⟨16, _⟩ => ⟨S16384x10, .f32⟩
  | .hbm, ⟨17, _⟩ => ⟨S16384x10, .f32⟩
  | .hbm, ⟨18, _⟩ => ⟨S16384x10, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_call1_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  shapeCasts_S10x1x28x28_S10x784 : S10x1x28x28.ShapeCasts S10x784
  pads_S10x784_S10x1024_000_02400 : S10x784.Pads (![0, 0] : Fin 2 → Nat) ![0, 240] ![0, 0] S10x1024
  h_S_ : 0 < S_.numel
  reducesTo_S10x1024_S10_d1 : S10x1024.ReducesTo [1] S10
  bcast_S10_S10x1_0 : S10.BroadcastsInDim S10x1 (![0] : Fin 1 → Fin S10x1.rank)
  bcast_S10x1_S10x1024_0_1 : S10x1.BroadcastsInDim S10x1024 (![0, 1] : Fin 2 → Fin S10x1024.rank)
  dot_S16384x1024_S10x1024_S16384x10_1_1_0_0_n_n_wf : DotDims.WF S16384x1024 S10x1024 S16384x10 [1] [1] [0] [0] [] []

variable [Facts₀]

def dot_S16384x1024_S10x1024_S16384x10_1_1_0_0_n_n : DotDims S16384x1024 S10x1024 S16384x10 where
  lhsContracting := [1]
  rhsContracting := [1]
  lhsNonContracting := [0]
  rhsNonContracting := [0]
  lhsBatch := []
  rhsBatch := []
  wf := dot_S16384x1024_S10x1024_S16384x10_1_1_0_0_n_n_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Body.lean ====
/-
  What one grid step of the kernel computes, entry by entry.

  A step holds 2048 sample rows (their real and their imaginary part, 2048 x 1024 each) and the whole column matrix
  (1024 x 128). It multiplies each part by the column matrix into a zero accumulator, squares the two products entry by
  entry and adds them. At row `p` and column `q` each product is the sum over the 1024 amplitudes of the sample row's
  entry times the column's entry, so the step's entry is the squared real overlap plus the squared imaginary overlap.
-/
import proofs.«106148_j52243982188997_1_alg».proof.Proof.Gen.KernelIdeal.Skeleton
import proofs.«106148_j52243982188997_1_alg».proof.Proof.LibPlainDot
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen
open scoped BigOperators

/-- One product of the step at `(p, q)`: the sum over the amplitudes of row `p` of the samples times column `q`. -/
theorem product_apply (l : FVec Ideal S2048x1024 .f32) (r : FVec Ideal S1024x128 .f32) (p : Fin 2048) (q : Fin 128) :
    matmul (F := Ideal) (φ₁ := .f32) (φ₂ := .f32) dot_S2048x1024_S1024x128_S2048x128_1_0_0_1_n_n none l
        (shapeCast S1024x128 r shapeCasts_S1024x128_S1024x128) (constant (F := Ideal) S2048x128 .f32 0x00000000#32) (ix2 p q)
      = ∑ k : Fin 1024, l (ix2 p k) * r (ix2 k q) := by
  rw [shapeCast_self]
  exact Cert.LibPlainDot.matmul_plain_apply (M := 2048) (K := 1024) (N := 128) (φ₁ := .f32) (φ₂ := .f32)
    dot_S2048x1024_S1024x128_S2048x128_1_0_0_1_n_n rfl rfl rfl rfl rfl rfl none l r p q

/-- The step's stored value at `(p, q)`. -/
theorem stored_apply (x2 : Vec Ideal S1024x128 .f32) (x0 x1 : Vec Ideal S2048x1024 .f32) (p : Fin 2048) (q : Fin 128) :
    k0_pay1 (F := Ideal) x2 x0 x1 (ix2 p q)
      = (∑ k : Fin 1024, x0 (ix2 p k) * x2 (ix2 k q)) * (∑ k : Fin 1024, x0 (ix2 p k) * x2 (ix2 k q))
        + (∑ k : Fin 1024, x1 (ix2 p k) * x2 (ix2 k q)) * (∑ k : Fin 1024, x1 (ix2 p k) * x2 (ix2 k q)) := by
  unfold k0_pay1
  rw [addf_apply, mulf_apply, mulf_apply, product_apply, product_apply]

end Cert.KernelIdeal.Body

end
-- ==== Proof.Overlap.lean ====
/-
  The swap-test statistic, stated once.

  A sample is a complex vector of 1024 amplitudes, held as a real row and an imaginary row; a class is a real row of 1024
  amplitudes. The overlap of a sample's real (or imaginary) row with a class row is the sum over the amplitudes of the
  products, and the statistic of the pair is the square of the real overlap plus the square of the imaginary overlap.

  Two arrangements of the class rows occur. In the first the ten class rows are the rows of a 10 x 1024 matrix. In the
  second they are the first ten columns of a 1024 x 128 matrix, and the statistic is computed for all 128 columns. Where
  the column matrix agrees with the row matrix on its first ten columns, the two statistics agree on those columns:
  each overlap is the same sum, term by term, so nothing is asked of the entries (they may be infinite).
-/
import Idealize.ShloMosaic.PureOps.Ideal.Laws
import Idealize.ShloMosaic.Lib.ValueIdx

noncomputable section

namespace Cert.Swap

open Idealize.ShloMosaic Idealize.ShloMosaic.ValueIdx
open scoped BigOperators

/-- The overlap of sample row `n` of `z` with class row `c` of `R`. -/
def overlap (z : (⟨2, ![16384, 1024]⟩ : Shape).Idx → EReal) (R : (⟨2, ![10, 1024]⟩ : Shape).Idx → EReal)
    (n : Fin 16384) (c : Fin 10) : EReal :=
  ∑ k : Fin 1024, z (ix2 n k) * R (ix2 c k)

/-- The statistic over the class rows: at `(n, c)` the squared real overlap plus the squared imaginary overlap. -/
def stat (zre zim : (⟨2, ![16384, 1024]⟩ : Shape).Idx → EReal) (R : (⟨2, ![10, 1024]⟩ : Shape).Idx → EReal) :
    (⟨2, ![16384, 10]⟩ : Shape).Idx → EReal := fun i =>
  overlap zre R (i 0) (i 1) * overlap zre R (i 0) (i 1) + overlap zim R (i 0) (i 1) * overlap zim R (i 0) (i 1)

/-- The overlap of sample row `n` of `z` with column `q` of the column matrix `T`. -/
def overlapCol (z : (⟨2, ![16384, 1024]⟩ : Shape).Idx → EReal) (T : (⟨2, ![1024, 128]⟩ : Shape).Idx → EReal)
    (n : Fin 16384) (q : Fin 128) : EReal :=
  ∑ k : Fin 1024, z (ix2 n k) * T (ix2 k q)

/-- The statistic over all 128 columns of the column matrix. -/
def statCol (zre zim : (⟨2, ![16384, 1024]⟩ : Shape).Idx → EReal) (T : (⟨2, ![1024, 128]⟩ : Shape).Idx → EReal) :
    (⟨2, ![16384, 128]⟩ : Shape).Idx → EReal := fun i =>
  overlapCol zre T (i 0) (i 1) * overlapCol zre T (i 0) (i 1) + overlapCol zim T (i 0) (i 1) * overlapCol zim T (i 0) (i 1)

/-- Where column `q` of the column matrix is class row `c`, the two overlaps are one sum. -/
theorem overlapCol_eq (z : (⟨2, ![16384, 1024]⟩ : Shape).Idx → EReal) (T : (⟨2, ![1024, 128]⟩ : Shape).Idx → EReal)
    (R : (⟨2, ![10, 1024]⟩ : Shape).Idx → EReal) (n : Fin 16384) (q : Fin 128) (c : Fin 10)
    (h : ∀ k : Fin 1024, T (ix2 k q) = R (ix2 c k)) : overlapCol z T n q = overlap z R n c := by
  unfold overlapCol overlap
  exact Finset.sum_congr rfl fun k _ => by rw [h k]

/-- The statistic over the columns, at a column that is a class row, is the statistic over the class rows there. -/
theorem statCol_eq (zre zim : (⟨2, ![16384, 1024]⟩ : Shape).Idx → EReal) (T : (⟨2, ![1024, 128]⟩ : Shape).Idx → EReal)
    (R : (⟨2, ![10, 1024]⟩ : Shape).Idx → EReal) (n : Fin 16384) (q : Fin 128) (c : Fin 10)
    (h : ∀ k : Fin 1024, T (ix2 k q) = R (ix2 c k)) : statCol zre zim T (ix2 n q) = stat zre zim R (ix2 n c) := by
  show overlapCol zre T n q * overlapCol zre T n q + overlapCol zim T n q * overlapCol zim T n q
    = overlap zre R n c * overlap zre R n c + overlap zim R n c * overlap zim R n c
  rw [overlapCol_eq zre T R n q c h, overlapCol_eq zim T R n q c h]

end Cert.Swap

end
-- ==== Proof.Blocks.lean ====
/-
  From the grid steps to the whole padded result.

  The grid has eight steps. Step `t` reads sample rows `2048 t … 2048 t + 2047` (all 1024 amplitudes) of the real and of
  the imaginary part, reads the whole column matrix, and writes rows `2048 t … 2048 t + 2047` (all 128 columns) of the
  result. So what step `t` writes back is block `t` of ONE array, the statistic over all 128 columns of the column
  matrix: row `p` of the step is sample row `2048 t + p`. The eight blocks tile the 16384 rows (row `r` lies in block
  `r / 2048`), hence after the last step the result array is that statistic everywhere.
-/
import proofs.«106148_j52243982188997_1_alg».proof.Proof.Gen.KernelIdeal.Frame
import proofs.«106148_j52243982188997_1_alg».proof.Proof.Body
import proofs.«106148_j52243982188997_1_alg».proof.Proof.Overlap
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Swap
open scoped BigOperators

variable (m : (ℓ : Loc nD τ sig) → Buf (Elt Ideal) ℓ)

theorem zero_offsets : (![0, 0] : Fin 2 → Nat) = fun _ => 0 := funext fun a => by fin_cases a <;> rfl

/-- The step's stored value at an entry `j` of the block, against the statistic at an entry `i` of the array, when the
    step's loaded rows and columns are the arrays' rows and columns that `i` names. -/
theorem stored_at (x0 x1 : Vec Ideal S2048x1024 .f32) (x2 : Vec Ideal S1024x128 .f32)
    (A0 A1 : S16384x1024.Idx → EReal) (A2 : S1024x128.Idx → EReal) (j : S2048x128.Idx) (i : S16384x128.Idx)
    (h0 : ∀ k : Fin 1024, x0 (ix2 (j 0) k) = A0 (ix2 (i 0) k))
    (h1 : ∀ k : Fin 1024, x1 (ix2 (j 0) k) = A1 (ix2 (i 0) k))
    (h2 : ∀ k : Fin 1024, x2 (ix2 k (j 1)) = A2 (ix2 k (i 1))) :
    k0_pay1 (F := Ideal) x2 x0 x1 j = statCol A0 A1 A2 i := by
  have e : k0_pay1 (F := Ideal) x2 x0 x1 j = _ :=
    (congrArg (k0_pay1 (F := Ideal) x2 x0 x1) (eq_ix2 j)).trans (Body.stored_apply x2 x0 x1 (j 0) (j 1))
  rw [e]
  unfold statCol overlapCol
  simp only [h0, h1, h2]

/-- The printed index maps over the grid: the two sample windows move with the result window along the rows and stay at
    column block 0; the column matrix stays at block (0, 0); the result's row block is the step's number. -/
theorem index_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) ≤ 7
    ∧ win0_3.index t (1 : Fin 2) = 0 :=
  (by decide +kernel : ∀ t : Fin grid0.N, _)

/-- Every row block is some step's. -/
theorem index_onto : ∀ q0 : Fin 8, ∃ t : Fin cfg0.N, win0_3.index t = ![q0.val, 0] :=
  (by decide +kernel : ∀ q0 : Fin 8, ∃ t : Fin grid0.N, win0_3.index t = ![q0.val, 0])

/-- What step `t` writes back is block `t` of the statistic over the columns, of the arrays as the region finds them. -/
theorem flushed_eq (c : Dev nD) (t : Fin cfg0.N) :
    (dats m 0 c).flushed 3 t
      = ((cfg0.win 3).blk t).view.read (Elt Ideal) (statCol (V m c main_arg0) (V m c main_arg1) (V m c main_v6)) := by
  show (cfg0.win 3).cut (grid0.coords t) ((dats m 0 c).after 3 t) = _
  rw [after0_3]
  unfold out0_3
  rw [View.canon_unit_zero zero_offsets]
  simp only [View.ld_unit_zero (S := S2048x1024) zero_offsets, View.ld_unit_zero (S := S1024x128) zero_offsets]
  obtain ⟨e0, e1, e2, e3, e4, e5, e6, e7⟩ := index_facts t
  funext j
  show k0_pay1 (F := Ideal) (iblk m c 2 t) (iblk m c 0 t) (iblk m c 1 t) j
    = statCol (V m c main_arg0) (V m c main_arg1) (V m c main_v6) (((cfg0.win 3).blk t).view.emb j)
  refine stored_at (iblk m c 0 t) (iblk m c 1 t) (iblk m c 2 t) (V m c main_arg0) (V m c main_arg1) (V m c main_v6) j
    (((cfg0.win 3).blk t).view.emb j) ?_ ?_ ?_
  · intro k
    show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 1024 + 1 * k.val = k.val; omega
  · intro k
    show V m c main_arg1 (((cfg0.win 1).blk t).view.emb (ix2 (j 0) k)) = V m c main_arg1 (ix2 ((((cfg0.win 3).blk t).view.emb j) 0) k)
    refine congrArg (V m c main_arg1) (funext fun a => Fin.ext ?_)
    match a with
    | ⟨0, _⟩ => show win0_1.index t (0 : Fin 2) * 2048 + 1 * (j 0).val = win0_3.index t (0 : Fin 2) * 2048 + 1 * (j 0).val; omega
    | ⟨1, _⟩ => show win0_1.index t (1 : Fin 2) * 1024 + 1 * k.val = k.val; omega
  · intro k
    show V m c main_v6 (((cfg0.win 2).blk t).view.emb (ix2 k (j 1))) = V m c main_v6 (ix2 k ((((cfg0.win 3).blk t).view.emb j) 1))
    refine congrArg (V m c main_v6) (funext fun a => Fin.ext ?_)
    match a with
    | ⟨0, _⟩ => show win0_2.index t (0 : Fin 2) * 1024 + 1 * k.val = k.val; omega
    | ⟨1, _⟩ => show win0_2.index t (1 : Fin 2) * 128 + 1 * (j 1).val = win0_3.index t (1 : Fin 2) * 128 + 1 * (j 1).val; omega

/-- An entry of the result array is in step `t`'s block iff each coordinate is in the block's range on its axis. -/
theorem mem_block (t : Fin cfg0.N) (i : S16384x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v7).slice (win0_3.rect t)).set ↔ _
  rw [View.set_slice_whole, Rect.mem_set_unit]
  exact Iff.rfl

/-- Every entry of the result array is in the block of the step numbered by its row divided by 2048. -/
theorem covered (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ := index_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The result array after the last step: the statistic over the columns, everywhere. -/
theorem padded_result (c : Dev nD) :
    (dats m 0 c).arrAt 3 cfg0.N = statCol (V m c main_arg0) (V m c main_arg1) (V m c main_v6) :=
  (dats m 0 c).arrAt_eq_of_cover 3 _ (fun t _ => flushed_eq m c t) covered

end Cert.KernelIdeal.Blocks

end
-- ==== Proof.Rows.lean ====
/-
  The class rows and the column matrix the region reads.

  Before the region the host turns the ten 28 x 28 images into ten unit rows: each image is flattened to 784 entries,
  extended by 240 zeros to 1024 amplitudes, and divided by the square root of the sum of its squares. These are the class
  rows (10 x 1024). It then extends the rows by 118 zero rows to 128 rows and transposes: the column matrix (1024 x 128)
  that the region's third window reads. Column `q` of the column matrix, for `q` below ten, is class row `q`: entry
  `(k, q)` of the transpose is entry `(q, k)` of the extended rows, which lies inside the rows that were extended.
-/
import proofs.«106148_j52243982188997_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal
import Idealize.ShloMosaic.PureOps.Ideal.Laws

set_option maxRecDepth 16384

noncomputable section

namespace Cert.KernelIdeal.Rows

open Idealize.ShloMosaic Idealize.ShloMosaic.TcCoe Idealize.ShloMosaic.ValueIdx Idealize.SL.Sem Idealize.ShloMosaic.StableHlo
open Cert.KernelIdeal Cert.KernelIdeal.Gen

/-- The images flattened and extended by zeros to 1024 amplitudes. -/
def amplitudes (x2 : S10x1x28x28.Idx → EReal) : S10x1024.Idx → EReal :=
  pad S10x1024 ![0, 0] ![0, 240] ![0, 0] (shapeCast S10x784 x2 shapeCasts_S10x1x28x28_S10x784)
    (sitofp (F := Ideal) .f32 (constantI S_ 32 0#32)) pads_S10x784_S10x1024_000_02400 h_S_

/-- The class rows: each row of amplitudes divided by the square root of the sum of its squares. -/
def classRows (x2 : S10x1x28x28.Idx → EReal) : S10x1024.Idx → EReal :=
  Host.divf (F := Ideal) (amplitudes x2)
    (broadcastInDim S10x1024 ![0, 1] bcast_S10x1_S10x1024_0_1
      (Host.sqrt (F := Ideal) (broadcastInDim S10x1 ![0] bcast_S10_S10x1_0
        (Host.reduceAdd (F := Ideal) (mulf (F := Ideal) (amplitudes x2) (amplitudes x2)) (constant (F := Ideal) S_ .f32 0x00000000#32)
          reducesTo_S10x1024_S10_d1 h_S_))))

/-- The column matrix: the class rows extended by 118 zero rows, transposed. -/
def columnMatrix (x2 : S10x1x28x28.Idx → EReal) : S1024x128.Idx → EReal :=
  transpose S1024x128 [1, 0]
    (pad S128x1024 ![0, 0] ![118, 0] ![0, 0] (classRows x2) (sitofp (F := Ideal) .f32 (constantI S_ 32 0#32))
      pads_S10x1024_S128x1024_01180_000 h_S_)
    transposes_S128x1024_S1024x128_1_0

/-- Column `q` of the column matrix is class row `c` when `q` and `c` are the same number. -/
theorem columnMatrix_apply (x2 : S10x1x28x28.Idx → EReal) (k : Fin 1024) (q : Fin 128) (c : Fin 10) (hq : q.val = c.val) :
    columnMatrix x2 (ix2 k q) = classRows x2 (ix2 c k) := by
  unfold columnMatrix
  rw [transpose_ix2_apply]
  exact pad_apply_of_inside ![0, 0] ![118, 0] ![0, 0] (classRows x2) _ pads_S10x1024_S128x1024_01180_000 h_S_
    (ix2 q k) (ix2 c k) fun a => by
      match a with
      | ⟨0, _⟩ => show q.val = 0 + c.val * (0 + 1); omega
      | ⟨1, _⟩ => show k.val = 0 + k.val * (0 + 1); omega

variable (m : (ℓ : Loc nD τ sig) → Buf (Elt Ideal) ℓ)

/-- The region finds the column matrix in its third window's array. -/
theorem V_columns (c : Dev nD) :
    (V m c main_v6 : S1024x128.Idx → EReal) = columnMatrix (m ((c : Thread nD τ).loc main_arg2)) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

end Cert.KernelIdeal.Rows

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.Result.lean ====
/-
  The kernel's result array.

  After the region the host keeps the first ten of the 128 columns of the padded result. Entry `(n, c)` of what it keeps
  is entry `(n, c)` of the padded result, that is the statistic of sample `n` over column `c` of the column matrix; and
  column `c`, for `c` below ten, is class row `c`. So the kernel's result is the statistic of the samples over the class
  rows. The sample arrays are read as launched: no host operation before the region writes them.
-/
import proofs.«106148_j52243982188997_1_alg».proof.Proof.Blocks
import proofs.«106148_j52243982188997_1_alg».proof.Proof.Rows
import proofs.«106148_j52243982188997_1_alg».proof.Proof.LibColsCut
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.Swap

variable (m : (ℓ : Loc nD τ sig) → Buf (Elt Ideal) ℓ)

/-- What the host operation after the region leaves in the result buffer: the first ten columns of the region's array. -/
theorem kept_columns (c : Dev nD) :
    (Pipeline.afterTail₀ cfgs (dats m) 0 (V0 m) [hostOps1] c main_v8 : S16384x10.Idx → EReal)
      = extractStridedSlice S16384x10 ![0, 0] ((dats m 0 c).arrAt 3 cfg0.N) slices_S16384x128_S16384x10_0_0 := by
  unfold Pipeline.afterTail₀
  show StableHlo.after hostOps1 _ (Proc.devRef .tc main_v8) = _
  after_results
  exact congrArg (fun A => extractStridedSlice S16384x10 ![0, 0] A slices_S16384x128_S16384x10_0_0)
    (Pipeline.withArrays_arr spec0 launch0.win.arr_inj c (V0 m c) (fun w => (dats m 0 c).arrAt w cfg0.N) 3)

/-- The kernel's result: the statistic of the launched sample arrays over the class rows of the launched images. -/
theorem result_eq (c : Dev nD) :
    (Pipeline.afterTail₀ cfgs (dats m) 0 (V0 m) [hostOps1] c main_v8 : S16384x10.Idx → EReal)
      = stat (m ((c : Thread nD τ).loc main_arg0)) (m ((c : Thread nD τ).loc main_arg1))
          (Rows.classRows (m ((c : Thread nD τ).loc main_arg2))) := by
  rw [kept_columns, Blocks.padded_result, V_main_arg0, V_main_arg1, Rows.V_columns]
  funext i
  obtain ⟨n, q, rfl⟩ : ∃ (n : Fin 16384) (q : Fin 10), i = ix2 n q := ⟨i 0, i 1, eq_ix2 i⟩
  have hq : q.val < 128 := by have := q.isLt; omega
  rw [Cert.LibColsCut.slice_cols 0 _ slices_S16384x128_S16384x10_0_0 n q ⟨q.val, hq⟩ (by show q.val = 0 + q.val; omega)]
  exact statCol_eq _ _ _ _ n ⟨q.val, hq⟩ q fun k => Rows.columnMatrix_apply _ k ⟨q.val, hq⟩ q rfl

end Cert.KernelIdeal.Result

end
-- ==== Proof.Ref.lean ====
/-
  The reference computes the statistic over its class rows.

  The reference contracts each sample row with each class row directly (both along their 1024 amplitudes), squares the
  real and the imaginary contraction and adds them. Read entry by entry that is the statistic of the samples over the
  class rows the reference's host operations produce.
-/
import proofs.«106148_j52243982188997_1_alg».proof.Proof.Gen.ReferenceIdeal.Read
import proofs.«106148_j52243982188997_1_alg».proof.Proof.Overlap

noncomputable section

namespace Cert.ReferenceIdeal.RefValue

open Idealize.ShloMosaic Idealize.ShloMosaic.ValueIdx Cert.ReferenceIdeal Cert.ReferenceIdeal.Read Cert.Swap
open scoped BigOperators

/-- The reference's result is the statistic of the two sample arrays over its class rows. -/
theorem result_is_stat (x0 x1 : (⟨S16384x1024, .f32⟩ : BufTy).Contents (Elt Ideal))
    (x2 : (⟨S10x1x28x28, .f32⟩ : BufTy).Contents (Elt Ideal)) :
    val_main_v9 (F := Ideal) x0 x1 x2 = stat x0 x1 (val_main_v4 (F := Ideal) x2) := by
  funext i
  have el5 : ∀ k : Fin 1024, lidx_main_v5 i k = ix2 (i 0) k := fun k =>
    funext fun a => Fin.ext (by match a with | ⟨0, _⟩ => rfl | ⟨1, _⟩ => rfl)
  have er5 : ∀ k : Fin 1024, ridx_main_v5 i k = ix2 (i 1) k := fun k =>
    funext fun a => Fin.ext (by match a with | ⟨0, _⟩ => rfl | ⟨1, _⟩ => rfl)
  have el6 : ∀ k : Fin 1024, lidx_main_v6 i k = ix2 (i 0) k := fun k =>
    funext fun a => Fin.ext (by match a with | ⟨0, _⟩ => rfl | ⟨1, _⟩ => rfl)
  have er6 : ∀ k : Fin 1024, ridx_main_v6 i k = ix2 (i 1) k := fun k =>
    funext fun a => Fin.ext (by match a with | ⟨0, _⟩ => rfl | ⟨1, _⟩ => rfl)
  rw [val_main_v9_apply, val_main_v7_apply, val_main_v8_apply, val_main_v5_apply, val_main_v6_apply]
  simp only [Ideal.addf_def, Ideal.mulf_def, el5, er5, el6, er6]
  rfl

end Cert.ReferenceIdeal.RefValue

end
-- ==== Proof.lean ====
/-
  The kernel and its reference compute one swap-test statistic.

  A sample is a complex vector of 1024 amplitudes (a real row and an imaginary row); a class is a unit row of 1024
  amplitudes, made on the host from a 28 x 28 image by flattening it, extending it by zeros and dividing by its norm. For
  sample `n` and class `c` both programs return the squared real overlap plus the squared imaginary overlap, an overlap
  being the sum over the amplitudes of the products.

  The reference contracts the sample rows with the class rows directly. The kernel extends the class rows by zero rows
  to 128, transposes them into a column matrix, and in each of eight grid steps multiplies 2048 sample rows by that
  matrix, squares and adds; afterwards the host keeps the first ten columns. Column `c` of the column matrix is class
  row `c`, so each of the kernel's overlaps is the reference's overlap, the same sum term by term: nothing is asked of
  the inputs' finiteness, and the class rows, made by the same host operations in both programs, are never opened.

  The frames of the two kernel programs are the generated ones; the reference's frame is its generated run with the
  result dropped. The kernel's idealization rewrote no operation, so there is nothing to preserve.
-/
import proofs.«106148_j52243982188997_1_alg».proof.Defs
import proofs.«106148_j52243982188997_1_alg».proof.Proof.Gen.Kernel
import proofs.«106148_j52243982188997_1_alg».proof.Proof.Gen.Kernel.Skeleton
import proofs.«106148_j52243982188997_1_alg».proof.Proof.Gen.Kernel.Launch
import proofs.«106148_j52243982188997_1_alg».proof.Proof.Gen.Kernel.Points
import proofs.«106148_j52243982188997_1_alg».proof.Proof.Gen.Kernel.Frame
import proofs.«106148_j52243982188997_1_alg».proof.Proof.Gen.KernelIdeal
import proofs.«106148_j52243982188997_1_alg».proof.Proof.Gen.KernelIdeal.Skeleton
import proofs.«106148_j52243982188997_1_alg».proof.Proof.Gen.KernelIdeal.Launch
import proofs.«106148_j52243982188997_1_alg».proof.Proof.Gen.KernelIdeal.Points
import proofs.«106148_j52243982188997_1_alg».proof.Proof.Gen.KernelIdeal.Frame
import proofs.«106148_j52243982188997_1_alg».proof.Proof.Gen.ReferenceIdeal
import proofs.«106148_j52243982188997_1_alg».proof.Proof.Gen.ReferenceIdeal.Run
import proofs.«106148_j52243982188997_1_alg».proof.Proof.Gen.ReferenceIdeal.Read
import proofs.«106148_j52243982188997_1_alg».proof.Proof.Gen.Pre_finite_inputs
import proofs.«106148_j52243982188997_1_alg».proof.Proof.Result
import proofs.«106148_j52243982188997_1_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem Cert.Swap

/-- The class rows are made by the same host operations in both programs. -/
theorem classRows_same (x2 : Cert.KernelIdeal.S10x1x28x28.Idx → EReal) :
    Cert.KernelIdeal.Rows.classRows x2 = Cert.ReferenceIdeal.Read.val_main_v4 (F := Ideal) x2 := rfl

section Kernel

open Cert.KernelIdeal Cert.KernelIdeal.Gen

/-- The idealized kernel's run: the result buffer ends at the statistic of the launched samples over the class rows of
    the launched images, and the three argument arrays end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = stat (m ((c.tc : Thread nD τ).loc main_arg0)) (m ((c.tc : Thread nD τ).loc main_arg1))
              (Cert.ReferenceIdeal.Read.val_main_v4 (F := Ideal) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans
        ((Cert.KernelIdeal.Result.result_eq m c).trans (congrArg (stat _ _) (classRows_same _))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the statistic of the kernel's launched samples over the class rows of its launched images: the
    kernel by `kernel_run`, the reference by its generated run read as the statistic, its arguments being the kernel's. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_is_stat,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
